-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x32x32x1024 : Shape := ⟨4, ![1, 32, 32, 1024]⟩
abbrev S1x32x1x8 : Shape := ⟨4, ![1, 32, 1, 8]⟩
abbrev S1x8x1024x1024 : Shape := ⟨4, ![1, 8, 1024, 1024]⟩
abbrev S_ : Shape := ⟨0, ![]⟩

class Facts : Prop where
  bcast_S_S1x32x32x1024 : S_.BroadcastsInDim S1x32x32x1024 (![] : Fin 0 → Fin S1x32x32x1024.rank)
  reducesTo_S1x32x32x1024_S_d0_1_2_3 : S1x32x32x1024.ReducesTo [0, 1, 2, 3] S_
  h_S_ : 0 < S_.numel
  bcast_S_S1x32x1x8 : S_.BroadcastsInDim S1x32x1x8 (![] : Fin 0 → Fin S1x32x1x8.rank)
  reducesTo_S1x32x1x8_S_d0_1_2_3 : S1x32x1x8.ReducesTo [0, 1, 2, 3] S_
  bcast_S_S1x8x1024x1024 : S_.BroadcastsInDim S1x8x1024x1024 (![] : Fin 0 → Fin S1x8x1024x1024.rank)
  reducesTo_S1x8x1024x1024_S_d0_1_2_3 : S1x8x1024x1024.ReducesTo [0, 1, 2, 3] S_

variable [Facts]

def fn {F : FTy → Type} [FloatOps F] (main_arg0 : FVec F S1x32x32x1024 .f32) (main_arg1 : FVec F S1x32x1x8 .f32) (main_arg2 : FVec F S1x8x1024x1024 .f32) : IVec S_ 1 :=
  let main_v0 : FVec F S1x32x32x1024 .f32 := Host.absf main_arg0
  let main_cst : FVec F S_ .f32 := constant S_ .f32 0x7F800000#32
  let main_v1 : FVec F S1x32x32x1024 .f32 := broadcastInDim S1x32x32x1024 ![] bcast_S_S1x32x32x1024 main_cst
  let main_v2 : IVec S1x32x32x1024 1 := cmpf .olt main_v0 main_v1
  let main_c : IVec S_ 1 := constantI S_ 1 1#1
  let main_v3 : IVec S_ 1 := (fun x v => Host.reduce IntOp.andi x v reducesTo_S1x32x32x1024_S_d0_1_2_3 h_S_) main_v2 main_c
  let main_v4 : FVec F S1x32x1x8 .f32 := Host.absf main_arg1
  let main_cst_0 : FVec F S_ .f32 := constant S_ .f32 0x7F800000#32
  let main_v5 : FVec F S1x32x1x8 .f32 := broadcastInDim S1x32x1x8 ![] bcast_S_S1x32x1x8 main_cst_0
  let main_v6 : IVec S1x32x1x8 1 := cmpf .olt main_v4 main_v5
  let main_c_1 : IVec S_ 1 := constantI S_ 1 1#1
  let main_v7 : IVec S_ 1 := (fun x v => Host.reduce IntOp.andi x v reducesTo_S1x32x1x8_S_d0_1_2_3 h_S_) main_v6 main_c_1
  let main_v8 : IVec S_ 1 := andi main_v3 main_v7
  let main_v9 : FVec F S1x8x1024x1024 .f32 := Host.absf main_arg2
  let main_cst_2 : FVec F S_ .f32 := constant S_ .f32 0x7F800000#32
  let main_v10 : FVec F S1x8x1024x1024 .f32 := broadcastInDim S1x8x1024x1024 ![] bcast_S_S1x8x1024x1024 main_cst_2
  let main_v11 : IVec S1x8x1024x1024 1 := cmpf .olt main_v9 main_v10
  let main_c_3 : IVec S_ 1 := constantI S_ 1 1#1
  let main_v12 : IVec S_ 1 := (fun x v => Host.reduce IntOp.andi x v reducesTo_S1x8x1024x1024_S_d0_1_2_3 h_S_) main_v11 main_c_3
  let main_v13 : IVec S_ 1 := andi main_v8 main_v12
  main_v13
-- ==== Kernel.lean ====
abbrev S1x32x32x1024 : Shape := ⟨4, ![1, 32, 32, 1024]⟩
abbrev S1x32x1x8 : Shape := ⟨4, ![1, 32, 1, 8]⟩
abbrev S1x8x1024x1024 : Shape := ⟨4, ![1, 8, 1024, 1024]⟩
abbrev S32x32x1024 : Shape := ⟨3, ![32, 32, 1024]⟩
abbrev S8x1024x1024 : Shape := ⟨3, ![8, 1024, 1024]⟩
abbrev S32x8 : Shape := ⟨2, ![32, 8]⟩
abbrev S8x32x8 : Shape := ⟨3, ![8, 32, 8]⟩
abbrev S8x128x1024 : Shape := ⟨3, ![8, 128, 1024]⟩
abbrev S32x32x128 : Shape := ⟨3, ![32, 32, 128]⟩
abbrev S1x32x8 : Shape := ⟨3, ![1, 32, 8]⟩
abbrev S8x128 : Shape := ⟨2, ![8, 128]⟩
abbrev S32x128 : Shape := ⟨2, ![32, 128]⟩
abbrev S_ : Shape := ⟨0, ![]⟩

abbrev nBuf : Space → Nat
  | .hbm => 11
  | .vmem => 6
  | .smem => 0
  | _ => 0

abbrev bufTy : (tb : Table) → Fin (tcTables nBuf tb) → BufTy
  | .hbm, ⟨0, _⟩ => ⟨S1x32x32x1024, .f32⟩
  | .hbm, ⟨1, _⟩ => ⟨S1x32x1x8, .f32⟩
  | .hbm, ⟨2, _⟩ => ⟨S1x8x1024x1024, .f32⟩
  | .hbm, ⟨3, _⟩ => ⟨S32x32x1024, .f32⟩
  | .hbm, ⟨4, _⟩ => ⟨S8x1024x1024, .f32⟩
  | .hbm, ⟨5, _⟩ => ⟨S32x8, .f32⟩
  | .hbm, ⟨6, _⟩ => ⟨S8x32x8, .f32⟩
  | .hbm, ⟨7, _⟩ => ⟨S_, .f32⟩
  | .hbm, ⟨8, _⟩ => ⟨S32x8, .f32⟩
  | .hbm, ⟨9, _⟩ => ⟨S32x8, .f32⟩
  | .hbm, ⟨10, _⟩ => ⟨S1x32x8, .f32⟩
  | .local _ .vmem, ⟨0, _⟩ => ⟨S8x128x1024, .f32⟩
  | .local _ .vmem, ⟨1, _⟩ => ⟨S8x128x1024, .f32⟩
  | .local _ .vmem, ⟨2, _⟩ => ⟨S32x32x128, .f32⟩
  | .local _ .vmem, ⟨3, _⟩ => ⟨S32x32x128, .f32⟩
  | .local _ .vmem, ⟨4, _⟩ => ⟨S1x32x8, .f32⟩
  | .local _ .vmem, ⟨5, _⟩ => ⟨S1x32x8, .f32⟩
  | _, _ => ⟨S1x32x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1x32x32x1024_S32x32x1024 : S1x32x32x1024.ShapeCasts S32x32x1024
  shapeCasts_S1x8x1024x1024_S8x1024x1024 : S1x8x1024x1024.ShapeCasts S8x1024x1024
  shapeCasts_S1x32x1x8_S32x8 : S1x32x1x8.ShapeCasts S32x8
  inb_S8x128x1024_S8x128x1024_0_0_0 : ∀ a, (![0, 0, 0] : Fin 3 → Nat) a + S8x128x1024.size a ≤ S8x128x1024.size a
  h_S8x128x1024 : 0 < S8x128x1024.numel
  shapeCasts_S8x128x1024_S8x128x1024 : S8x128x1024.ShapeCasts S8x128x1024
  reduces_S8x128x1024_S8x128 : S8x128x1024.Reduces [2] S8x128
  inb_S32x32x128_S32x32x128_0_0_0 : ∀ a, (![0, 0, 0] : Fin 3 → Nat) a + S32x32x128.size a ≤ S32x32x128.size a
  h_S32x32x128 : 0 < S32x32x128.numel
  shapeCasts_S32x32x128_S32x32x128 : S32x32x128.ShapeCasts S32x32x128
  reduces_S32x32x128_S32x128 : S32x32x128.Reduces [1] S32x128
  inb_S1x32x8_S1x32x8_0_0_0 : ∀ a, (![0, 0, 0] : Fin 3 → Nat) a + S1x32x8.size a ≤ S1x32x8.size a
  h_S1x32x8 : 0 < S1x32x8.numel
  shapeCasts_S1x32x8_S32x8 : S1x32x8.ShapeCasts S32x8
  shapeCasts_S32x8_S1x32x8 : S32x8.ShapeCasts S1x32x8
  reducesTo_S8x32x8_S32x8_d0 : S8x32x8.ReducesTo [0] S32x8
  h_S_ : 0 < S_.numel
  bcast_S32x8_S1x32x8_1_2 : S32x8.BroadcastsInDim S1x32x8 (![1, 2] : Fin 2 → Fin S1x32x8.rank)
  dot_S32x128_S8x128_S32x8_1_1_0_0_n_n_wf : DotDims.WF S32x128 S8x128 S32x8 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x1024.size a ≤ S8x1024x1024.size a
  hwx0_0 : ∀ i : grid0.Coords, EltTy.bits .f32 = 32 ∨ (Rect.block (s := S8x1024x1024) S8x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x32x128.size a ≤ S32x32x1024.size a
  hwx0_1 : ∀ i : grid0.Coords, EltTy.bits .f32 = 32 ∨ (Rect.block (s := S32x32x1024) S32x32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x8.size a ≤ S8x32x8.size a
  hwx0_2 : ∀ i : grid0.Coords, EltTy.bits .f32 = 32 ∨ (Rect.block (s := S8x32x8) S1x32x8.size (cc0_transform_2 i) (hinb0_2 i)).WholeWords (EltTy.packing .f32)

variable [Facts₀]

def dot_S32x128_S8x128_S32x8_1_1_0_0_n_n : DotDims S32x128 S8x128 S32x8 where
  lhsContracting := [1]
  rhsContracting := [1]
  lhsNonContracting := [0]
  rhsNonContracting := [0]
  lhsBatch := []
  rhsBatch := []
  wf := dot_S32x128_S8x128_S32x8_1_1_0_0_n_n_wf

abbrev win0_0 : Pipeline.Window sig grid0 :=
  Pipeline.Window.ofSpec (Memref.whole main_v1) S8x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x32x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x32x32x1024 : Shape := ⟨4, ![1, 32, 32, 1024]⟩
abbrev S1x32x1x8 : Shape := ⟨4, ![1, 32, 1, 8]⟩
abbrev S1x8x1024x1024 : Shape := ⟨4, ![1, 8, 1024, 1024]⟩
abbrev S8x1024x1024 : Shape := ⟨3, ![8, 1024, 1024]⟩
abbrev S_ : Shape := ⟨0, ![]⟩
abbrev S8x1024 : Shape := ⟨2, ![8, 1024]⟩
abbrev S1x32x1024 : Shape := ⟨3, ![1, 32, 1024]⟩
abbrev S1x32x8 : Shape := ⟨3, ![1, 32, 8]⟩

abbrev nBuf : Space → Nat
  | .hbm => 11
  | .vmem => 0
  | .smem => 0
  | _ => 0

abbrev bufTy : (tb : Table) → Fin (tcTables nBuf tb) → BufTy
  | .hbm, ⟨0, _⟩ => ⟨S1x32x32x1024, .f32⟩
  | .hbm, ⟨1, _⟩ => ⟨S1x32x1x8, .f32⟩
  | .hbm, ⟨2, _⟩ => ⟨S1x8x1024x1024, .f32⟩
  | .hbm, ⟨3, _⟩ => ⟨S8x1024x1024, .f32⟩
  | .hbm, ⟨4, _⟩ => ⟨S_, .f32⟩
  | .hbm, ⟨5, _⟩ => ⟨S8x1024, .f32⟩
  | .hbm, ⟨6, _⟩ => ⟨S_, .f32⟩
  | .hbm, ⟨7, _⟩ => ⟨S1x32x1024, .f32⟩
  | .hbm, ⟨8, _⟩ => ⟨S1x32x8, .f32⟩
  | .hbm, ⟨9, _⟩ => ⟨S1x32x8, .f32⟩
  | .hbm, ⟨10, _⟩ => ⟨S1x32x8, .f32⟩
  | _, _ => ⟨S1x32x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  shapeCasts_S1x8x1024x1024_S8x1024x1024 : S1x8x1024x1024.ShapeCasts S8x1024x1024
  reducesTo_S8x1024x1024_S8x1024_d2 : S8x1024x1024.ReducesTo [2] S8x1024
  h_S_ : 0 < S_.numel
  reducesTo_S1x32x32x1024_S1x32x1024_d2 : S1x32x32x1024.ReducesTo [2] S1x32x1024
  shapeCasts_S1x32x1x8_S1x32x8 : S1x32x1x8.ShapeCasts S1x32x8
  dot_S1x32x1024_S8x1024_S1x32x8_2_1_01_0_n_n_wf : DotDims.WF S1x32x1024 S8x1024 S1x32x8 [2] [1] [0, 1] [0] [] []

variable [Facts₀]

def dot_S1x32x1024_S8x1024_S1x32x8_2_1_01_0_n_n : DotDims S1x32x1024 S8x1024 S1x32x8 where
  lhsContracting := [2]
  rhsContracting := [1]
  lhsNonContracting := [0, 1]
  rhsNonContracting := [0]
  lhsBatch := []
  rhsBatch := []
  wf := dot_S1x32x1024_S8x1024_S1x32x8_2_1_01_0_n_n_wf

class Facts : Prop extends Facts₀ where

variable [Facts]
-- ==== Proof.Contraction.lean ====
/-
  The contraction both programs compute, written over plain coordinate functions, and the one law that joins them.

  With a b m h the hidden activations (row b, position m, channel h), w e h n the expert weights and s b e the
  routing mask, the result at (b, e) is
      (sum over h < 1024 of (sum_m a b m h) * (sum_n w e h n)) * s b e.
  One side takes the sum over the 1024 channels at once. The other cuts the channels into eight tiles of 128,
  forms each tile's sum separately and adds the eight tile sums. Channel h = 128 t + j belongs to tile t at
  offset j, and (t, j) -> 128 t + j is a bijection from 8 x 128 pairs onto the 1024 channels, so the two sums have
  the same terms; addition of extended reals is commutative and associative, so they are equal. Nothing here asks
  the summands to be finite.
-/
import Idealize.ShloMosaic.PureOps.Ideal
import Idealize.ShloMosaic.Lib.ValueIdx

noncomputable section

namespace Cert.Contraction

open Idealize.ShloMosaic Idealize.ShloMosaic.ValueIdx

/-- Channel `128 t + j`: offset `j` inside tile `t`. -/
def chan (t : Fin 8) (j : Fin 128) : Fin 1024 := ⟨128 * t.val + j.val, by have := t.isLt; have := j.isLt; omega⟩

@[simp] theorem chan_val (t : Fin 8) (j : Fin 128) : (chan t j).val = 128 * t.val + j.val := rfl

/-- Tile and offset are the quotient and remainder of the channel by 128: a bijection. -/
def chanEquiv : Fin 8 × Fin 128 ≃ Fin 1024 where
  toFun p := chan p.1 p.2
  invFun h := (⟨h.val / 128, by have := h.isLt; omega⟩, ⟨h.val % 128, Nat.mod_lt _ (by decide)⟩)
  left_inv := by
    rintro ⟨t, j⟩
    have := t.isLt; have := j.isLt
    refine Prod.ext (Fin.ext ?_) (Fin.ext ?_)
    · show (128 * t.val + j.val) / 128 = t.val; omega
    · show (128 * t.val + j.val) % 128 = j.val; omega
  right_inv := by
    intro h
    refine Fin.ext ?_
    show 128 * (h.val / 128) + h.val % 128 = h.val
    omega

/-- A sum over the 1024 channels is the sum over the tiles of the sums inside each tile. -/
theorem sum_chan {M : Type} [AddCommMonoid M] (f : Fin 1024 → M) :
    ∑ h : Fin 1024, f h = ∑ t : Fin 8, ∑ j : Fin 128, f (chan t j) :=
  calc ∑ h : Fin 1024, f h = ∑ p : Fin 8 × Fin 128, f (chanEquiv p) := (Equiv.sum_comp chanEquiv f).symm
    _ = ∑ t : Fin 8, ∑ j : Fin 128, f (chanEquiv (t, j)) := Fintype.sum_prod_type _

variable (a : Fin 32 → Fin 32 → Fin 1024 → EReal) (w : Fin 8 → Fin 1024 → Fin 1024 → EReal) (s : Fin 32 → Fin 8 → EReal)

/-- One channel's term: the activations summed over positions times the weights summed over outputs. -/
def term (b : Fin 32) (e : Fin 8) (h : Fin 1024) : EReal := (∑ mm : Fin 32, a b mm h) * (∑ n : Fin 1024, w e h n)

/-- The contraction over all channels at once. -/
def whole (b : Fin 32) (e : Fin 8) : EReal := ∑ h : Fin 1024, term a w b e h

/-- The contraction over the channels of tile `t` only. -/
def tileSum (t : Fin 8) (b : Fin 32) (e : Fin 8) : EReal := ∑ j : Fin 128, term a w b e (chan t j)

/-- The eight tile sums add up to the whole contraction. -/
theorem sum_tileSum (b : Fin 32) (e : Fin 8) : ∑ t : Fin 8, tileSum a w t b e = whole a w b e :=
  (sum_chan (term a w b e)).symm

/-- The masked contraction: the result at row `b`, expert `e`. -/
def masked (b : Fin 32) (e : Fin 8) : EReal := whole a w b e * s b e

/-- The result array [1, 32, 8] as a function of the three argument arrays [1, 32, 32, 1024], [1, 32, 1, 8] and
    [1, 8, 1024, 1024], index by index. -/
def result (x0 : (⟨4, ![1, 32, 32, 1024]⟩ : Shape).Idx → EReal) (x1 : (⟨4, ![1, 32, 1, 8]⟩ : Shape).Idx → EReal)
    (x2 : (⟨4, ![1, 8, 1024, 1024]⟩ : Shape).Idx → EReal) : (⟨3, ![1, 32, 8]⟩ : Shape).Idx → EReal :=
  fun i => masked (fun b mm h => x0 (ix4 (0 : Fin 1) b mm h)) (fun e h n => x2 (ix4 (0 : Fin 1) e h n))
    (fun b e => x1 (ix4 (0 : Fin 1) b (0 : Fin 1) e)) (i 1) (i 2)

theorem result_apply (x0 : (⟨4, ![1, 32, 32, 1024]⟩ : Shape).Idx → EReal) (x1 : (⟨4, ![1, 32, 1, 8]⟩ : Shape).Idx → EReal)
    (x2 : (⟨4, ![1, 8, 1024, 1024]⟩ : Shape).Idx → EReal) (u : Fin 1) (b : Fin 32) (e : Fin 8) :
    result x0 x1 x2 (ix3 u b e) = masked (fun b mm h => x0 (ix4 (0 : Fin 1) b mm h)) (fun e h n => x2 (ix4 (0 : Fin 1) e h n))
      (fun b e => x1 (ix4 (0 : Fin 1) b (0 : Fin 1) e)) b e := rfl

end Cert.Contraction

end
-- ==== Proof.ReferenceSide.lean ====
/-
  The reference program computes the masked contraction.

  Read one operation at a time, the reference sums the activations over positions and the weights over outputs
  (each sum started from the constant zero), multiplies the two reduced arrays along the 1024 channels in one
  product, and multiplies by the mask, whose unit axis a reshape drops. Index by index that is
  `Contraction.result` of the three argument arrays.
-/
import proofs.«107904_j62878321214308_2_alg».proof.Proof.Gen.ReferenceIdeal.Read
import proofs.«107904_j62878321214308_2_alg».proof.Proof.Contraction

noncomputable section

namespace Cert.ReferenceIdeal.Hand

open Cert.ReferenceIdeal Cert.ReferenceIdeal.Gen Cert.ReferenceIdeal.Read
open Idealize.ShloMosaic Idealize.ShloMosaic.ValueIdx Cert.Contraction

/-- The product's left operand at result index (0, b, e) and channel k sits at (0, b, k). -/
theorem lidx_eq (u : Fin 1) (b : Fin 32) (e : Fin 8) (k : Fin 1024) : lidx_main_v3 (ix3 u b e) k = ix3 u b k :=
  funext fun a => Fin.ext (by match a with | ⟨0, _⟩ => rfl | ⟨1, _⟩ => rfl | ⟨2, _⟩ => rfl)

/-- Its right operand sits at (e, k). -/
theorem ridx_eq (u : Fin 1) (b : Fin 32) (e : Fin 8) (k : Fin 1024) : ridx_main_v3 (ix3 u b e) k = ix2 e k :=
  funext fun a => Fin.ext (by match a with | ⟨0, _⟩ => rfl | ⟨1, _⟩ => rfl)

/-- The position sum at (0, b, k) runs over (0, b, mm, k). -/
theorem idx2_eq (u : Fin 1) (b : Fin 32) (k : Fin 1024) (mm : Fin 32) : idx_main_v2 (ix3 u b k) mm = ix4 u b mm k :=
  funext fun a => Fin.ext (by match a with | ⟨0, _⟩ => rfl | ⟨1, _⟩ => rfl | ⟨2, _⟩ => rfl | ⟨3, _⟩ => rfl)

/-- The output sum at (e, k) runs over (e, k, n). -/
theorem idx1_eq (e : Fin 8) (k : Fin 1024) (n : Fin 1024) : idx_main_v1 (ix2 e k) n = ix3 e k n :=
  funext fun a => Fin.ext (by match a with | ⟨0, _⟩ => rfl | ⟨1, _⟩ => rfl | ⟨2, _⟩ => rfl)

/-- Dropping the weights' leading unit axis: (e, k, n) reads (0, e, k, n). -/
theorem idx0_eq (e : Fin 8) (k : Fin 1024) (n : Fin 1024) : idx_main_v0 (ix3 e k n) = ix4 (0 : Fin 1) e k n :=
  funext fun a => Fin.ext (by
    have he := e.isLt; have hk := k.isLt; have hn := n.isLt
    match a with
    | ⟨0, _⟩ => rfl
    | ⟨1, _⟩ => show ((e.val * 1024 + k.val) * 1024 + n.val) / 1048576 % 8 = e.val; omega
    | ⟨2, _⟩ => show ((e.val * 1024 + k.val) * 1024 + n.val) / 1024 % 1024 = k.val; omega
    | ⟨3, _⟩ => show ((e.val * 1024 + k.val) * 1024 + n.val) % 1024 = n.val; omega)

/-- Dropping the mask's inner unit axis: (0, b, e) reads (0, b, 0, e). -/
theorem idx4_eq (u : Fin 1) (b : Fin 32) (e : Fin 8) : idx_main_v4 (ix3 u b e) = ix4 (0 : Fin 1) b (0 : Fin 1) e :=
  funext fun a => Fin.ext (by
    have hu : u.val = 0 := by omega
    have hb := b.isLt; have he := e.isLt
    match a with
    | ⟨0, _⟩ => rfl
    | ⟨1, _⟩ => show ((u.val * 32 + b.val) * 8 + e.val) / 8 % 32 = b.val; omega
    | ⟨2, _⟩ => rfl
    | ⟨3, _⟩ => show ((u.val * 32 + b.val) * 8 + e.val) % 8 = e.val; omega)

/-- The reference's result, as a function of the argument arrays, is the masked contraction. -/
theorem value_eq (x0 : (⟨S1x32x32x1024, .f32⟩ : BufTy).Contents (Elt Ideal)) (x1 : (⟨S1x32x1x8, .f32⟩ : BufTy).Contents (Elt Ideal))
    (x2 : (⟨S1x8x1024x1024, .f32⟩ : BufTy).Contents (Elt Ideal)) :
    val_main_v5 (F := Ideal) x0 x1 x2 = Contraction.result x0 x1 x2 := by
  funext i
  obtain ⟨u, b, e, rfl⟩ : ∃ (u : Fin 1) (b : Fin 32) (e : Fin 8), i = ix3 u b e := ⟨i 0, i 1, i 2, eq_ix3 i⟩
  obtain rfl : u = 0 := Subsingleton.elim _ _
  rw [val_main_v5_apply, val_main_v3_apply, val_main_v4_apply, result_apply]
  simp only [val_main_v2_apply, val_main_v1_apply, val_main_v0_apply, val_main_cst_apply, val_main_cst_0_apply,
    lidx_eq, ridx_eq, idx2_eq, idx1_eq, idx0_eq, idx4_eq]
  have hz : (FloatOps.ofBits (F := Ideal) .f32 0x00000000#32 : EReal) = 0 := Ideal.ofBits_zero_f32
  simp only [hz, zero_add]
  rfl

end Cert.ReferenceIdeal.Hand

end
-- ==== Proof.TilePayload.lean ====
/-
  What one grid point computes, index by index.

  At a grid point the body holds a [8, 128, 1024] block of weights x0 and a [32, 32, 128] block of activations x1.
  It sums x0 over its last axis, sums x1 over its middle axis, and multiplies the two reduced blocks along the 128
  channels of the tile into a zero accumulator. So the stored [1, 32, 8] block holds at (0, b, e)
      sum over j < 128 of (sum_m x1 b m j) * (sum_n x0 e j n).
-/
import proofs.«107904_j62878321214308_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-- The activations summed over positions: the reduction over the middle axis at (b, j) runs over (b, m, j). -/
theorem posSum_apply (x1 : FVec Ideal S32x32x128 .f32) (h : S32x32x128.Reduces [1] S32x128) (hφ : FKind.Formats .f32)
    (hacc : (0x00000000#32 : BitVec 32) = FKind.add.neutral .f32 hφ) (b : Fin 32) (j : Fin 128) :
    multiReduction .add [1] S32x128 x1 0x00000000#32 h hφ hacc (ix2 b j) = ∑ mm : Fin 32, x1 (ix3 b mm j) :=
  (Ideal.multiReduction_add_single x1 _ h hφ hacc (ix2 b j)).trans
    (Finset.sum_congr rfl fun mm _ => congrArg x1 (funext fun a => Fin.ext (by
      match a with | ⟨0, _⟩ => rfl | ⟨1, _⟩ => rfl | ⟨2, _⟩ => rfl)))

/-- The weights summed over outputs: the reduction over the last axis at (e, j) runs over (e, j, n). -/
theorem outSum_apply (x0 : FVec Ideal S8x128x1024 .f32) (h : S8x128x1024.Reduces [2] S8x128) (hφ : FKind.Formats .f32)
    (hacc : (0x00000000#32 : BitVec 32) = FKind.add.neutral .f32 hφ) (e : Fin 8) (j : Fin 128) :
    multiReduction .add [2] S8x128 x0 0x00000000#32 h hφ hacc (ix2 e j) = ∑ n : Fin 1024, x0 (ix3 e j n) :=
  (Ideal.multiReduction_add_single x0 _ h hφ hacc (ix2 e j)).trans
    (Finset.sum_congr rfl fun n _ => congrArg x0 (funext fun a => Fin.ext (by
      match a with | ⟨0, _⟩ => rfl | ⟨1, _⟩ => rfl | ⟨2, _⟩ => rfl)))

local notation "DD" => dot_S32x128_S8x128_S32x8_1_1_0_0_n_n

theorem lhs_0 (i : S32x8.Idx) (q : (DD).contr.Idx) : ((DD).lhsIdx i q 0).val = (i 0).val := by
  unfold DotDims.lhsIdx
  rw [dif_neg (show ¬(0 : Fin S32x128.rank) ∈ (DD).lhsBatch by decide), dif_pos (show (0 : Fin S32x128.rank) ∈ (DD).lhsNonContracting by decide)]
  rfl
theorem lhs_1 (i : S32x8.Idx) (q : (DD).contr.Idx) : ((DD).lhsIdx i q 1).val = (q ⟨0, by decide⟩).val :=
  (DD).lhsIdx_val_of_single rfl i q
theorem rhs_0 (i : S32x8.Idx) (q : (DD).contr.Idx) : ((DD).rhsIdx i q 0).val = (i 1).val := by
  unfold DotDims.rhsIdx
  rw [dif_neg (show ¬(0 : Fin S8x128.rank) ∈ (DD).rhsBatch by decide), dif_pos (show (0 : Fin S8x128.rank) ∈ (DD).rhsNonContracting by decide)]
  rfl
theorem rhs_1 (i : S32x8.Idx) (q : (DD).contr.Idx) : ((DD).rhsIdx i q 1).val = (q ⟨0, by decide⟩).val :=
  (DD).rhsIdx_val_of_single rfl i q

/-- The product of a [32, 128] and an [8, 128] block along their 128 channels, into a zero accumulator, at (b, e). -/
theorem tileDot_apply (l : FVec Ideal S32x128 .f32) (r : FVec Ideal S8x128 .f32) (b : Fin 32) (e : Fin 8) :
    matmul (DD) (some .fp32) l r (constant S32x8 .f32 0x00000000#32) (ix2 b e) = ∑ j : Fin 128, l (ix2 b j) * r (ix2 e j) := by
  refine (Ideal.matmul_constant_zero_apply (DD) (some .fp32) l r (ix2 b e)).trans ?_
  rw [← Equiv.sum_comp (ValueIdx.contrEquiv1 (DD) 128 rfl rfl).symm]
  refine Finset.sum_congr rfl fun k _ => ?_
  have hk := ValueIdx.contrEquiv1_symm_val (DD) 128 rfl rfl k
  have el : (DD).lhsIdx (ix2 b e) ((ValueIdx.contrEquiv1 (DD) 128 rfl rfl).symm k) = ix2 b k := funext fun a => Fin.ext (by
    match a with
    | ⟨0, _⟩ => exact lhs_0 _ _
    | ⟨1, _⟩ => exact (lhs_1 _ _).trans hk)
  have er : (DD).rhsIdx (ix2 b e) ((ValueIdx.contrEquiv1 (DD) 128 rfl rfl).symm k) = ix2 e k := funext fun a => Fin.ext (by
    match a with
    | ⟨0, _⟩ => exact rhs_0 _ _
    | ⟨1, _⟩ => exact (rhs_1 _ _).trans hk)
  rw [el, er]

/-- The block a grid point stores, at (0, b, e): the tile's contraction of the reduced blocks. -/
theorem pay_apply (x0 : Vec Ideal S8x128x1024 .f32) (x1 : Vec Ideal S32x32x128 .f32) (u : Fin 1) (b : Fin 32) (e : Fin 8) :
    k0_pay1 (F := Ideal) x0 x1 (ix3 u b e) = ∑ j : Fin 128, (∑ mm : Fin 32, x1 (ix3 b mm j)) * (∑ n : Fin 1024, x0 (ix3 e j n)) := by
  unfold k0_pay1
  dsimp only
  refine (shapeCast_ab_1ab_apply _ _ u b e).trans ?_
  refine (tileDot_apply _ _ b e).trans ?_
  refine Finset.sum_congr rfl fun j _ => ?_
  rw [shapeCast_self, shapeCast_self]
  exact congrArg₂ (· * ·) (posSum_apply x1 _ _ _ b j) (outSum_apply x0 _ _ _ e j)

end Cert.KernelIdeal.Hand

end
-- ==== Proof.TileBlocks.lean ====
/-
  From the blocks to the array of tile sums.

  Grid point t fetches the weights' rows 128 t .. 128 t + 127 (all experts, all outputs) and the activations'
  channels 128 t .. 128 t + 127 (all rows, all positions), and writes back slab t of the [8, 32, 8] array of
  partial results. So slab t holds, at (b, e), the contraction over the channels of tile t, and since the eight
  slabs cover the array, after the region the whole array is `tiles` of the two reshaped argument arrays.
-/
import proofs.«107904_j62878321214308_2_alg».proof.Proof.Gen.KernelIdeal.Frame
import proofs.«107904_j62878321214308_2_alg».proof.Proof.TilePayload
import proofs.«107904_j62878321214308_2_alg».proof.Proof.Contraction
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Contraction

variable (m : (ℓ : Loc nD τ sig) → Buf (Elt Ideal) ℓ)

theorem hz3 : (![0, 0, 0] : Fin 3 → Nat) = fun _ => 0 := funext fun a => by fin_cases a <;> rfl

/-- The [8, 32, 8] array of tile sums, as a function of the weights reshaped to [8, 1024, 1024] and the activations
    reshaped to [32, 32, 1024]: at (t, b, e) the contraction over the channels of tile t. -/
def tiles (A1 : S8x1024x1024.Idx → EReal) (A0 : S32x32x1024.Idx → EReal) : S8x32x8.Idx → EReal :=
  fun i => tileSum (fun b mm h => A0 (ix3 b mm h)) (fun e h n => A1 (ix3 e h n)) (i 0) (i 1) (i 2)

/-- A stored block whose loaded blocks are the tile's rows and channels of the two arrays is slab `tv` of `tiles`. -/
theorem tile_block (A1 : S8x1024x1024.Idx → EReal) (A0 : S32x32x1024.Idx → EReal) (tv : Fin 8)
    (x0 : Vec Ideal S8x128x1024 .f32) (x1 : Vec Ideal S32x32x128 .f32)
    (h0 : ∀ (e : Fin 8) (j : Fin 128) (n : Fin 1024), x0 (ix3 e j n) = A1 (ix3 e (chan tv j) n))
    (h1 : ∀ (b : Fin 32) (mm : Fin 32) (j : Fin 128), x1 (ix3 b mm j) = A0 (ix3 b mm (chan tv j)))
    (y : S1x32x8.Idx) (i : S8x32x8.Idx) (hi0 : (i 0).val = tv.val) (hi1 : (i 1).val = (y 1).val) (hi2 : (i 2).val = (y 2).val) :
    k0_pay1 (F := Ideal) x0 x1 y = tiles A1 A0 i := by
  obtain ⟨u, b, e, rfl⟩ : ∃ (u : Fin 1) (b : Fin 32) (e : Fin 8), y = ix3 u b e := ⟨y 0, y 1, y 2, eq_ix3 y⟩
  obtain ⟨t', b', e', rfl⟩ : ∃ (t' : Fin 8) (b' : Fin 32) (e' : Fin 8), i = ix3 t' b' e' := ⟨i 0, i 1, i 2, eq_ix3 i⟩
  obtain rfl : t' = tv := Fin.ext hi0
  obtain rfl : b' = b := Fin.ext hi1
  obtain rfl : e' = e := Fin.ext hi2
  rw [pay_apply]
  show _ = tileSum (fun b mm h => A0 (ix3 b mm h)) (fun e h n => A1 (ix3 e h n)) t' b' e'
  unfold tileSum term
  simp only [h0, h1]

/-- Where each window's block sits at grid point t: the weights' block at rows 128 t, the activations' block at
    channels 128 t, the output's block at slab t. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = t.val
    ∧ win0_2.index t (0 : Fin 3) = t.val ∧ win0_2.index t (1 : Fin 3) = 0 ∧ win0_2.index t (2 : Fin 3) = 0 :=
  (by decide +kernel : ∀ t : Fin grid0.N, _)

/-- The weights' block at point t reads rows 128 t + j of the reshaped weights. -/
theorem wblk_apply (c : Dev nD) (t : Fin cfg0.N) (tv : Fin 8) (htv : tv.val = t.val) (e : Fin 8) (j : Fin 128) (n : Fin 1024) :
    (iblk m c 0 t : Vec Ideal S8x128x1024 .f32) (ix3 e j n) = (V m c main_v1 : S8x1024x1024.Idx → EReal) (ix3 e (chan tv j) n) := by
  obtain ⟨e0, e1, e2, -⟩ := idx_facts t
  unfold iblk
  rw [View.read_apply]
  show V m c main_v1 (((cfg0.win 0).blk t).view.emb (ix3 e j n)) = V m c main_v1 (ix3 e (chan tv j) n)
  refine congrArg (V m c main_v1) (funext fun a => Fin.ext ?_)
  match a with
  | ⟨0, _⟩ => show win0_0.index t (0 : Fin 3) * 8 + 1 * e.val = e.val; omega
  | ⟨1, _⟩ => show win0_0.index t (1 : Fin 3) * 128 + 1 * j.val = 128 * tv.val + j.val; omega
  | ⟨2, _⟩ => show win0_0.index t (2 : Fin 3) * 1024 + 1 * n.val = n.val; omega

/-- The activations' block at point t reads channels 128 t + j of the reshaped activations. -/
theorem ablk_apply (c : Dev nD) (t : Fin cfg0.N) (tv : Fin 8) (htv : tv.val = t.val) (b : Fin 32) (mm : Fin 32) (j : Fin 128) :
    (iblk m c 1 t : Vec Ideal S32x32x128 .f32) (ix3 b mm j) = (V m c main_v0 : S32x32x1024.Idx → EReal) (ix3 b mm (chan tv j)) := by
  obtain ⟨-, -, -, e0, e1, e2, -⟩ := idx_facts t
  unfold iblk
  rw [View.read_apply]
  show V m c main_v0 (((cfg0.win 1).blk t).view.emb (ix3 b mm j)) = V m c main_v0 (ix3 b mm (chan tv j))
  refine congrArg (V m c main_v0) (funext fun a => Fin.ext ?_)
  match a with
  | ⟨0, _⟩ => show win0_1.index t (0 : Fin 3) * 32 + 1 * b.val = b.val; omega
  | ⟨1, _⟩ => show win0_1.index t (1 : Fin 3) * 32 + 1 * mm.val = mm.val; omega
  | ⟨2, _⟩ => show win0_1.index t (2 : Fin 3) * 128 + 1 * j.val = 128 * tv.val + j.val; omega

/-- What grid point t writes back is slab t of `tiles` of the two reshaped arrays. -/
theorem flushed_eq (c : Dev nD) (t : Fin cfg0.N) :
    (dats m 0 c).flushed 2 t = ((cfg0.win 2).blk t).view.read (Elt Ideal) (tiles (V m c main_v1) (V m c main_v0)) := by
  have hN : cfg0.N = 8 := N_0
  have htl : t.val < 8 := by have := t.isLt; omega
  obtain ⟨-, -, -, -, -, -, e0, e1, e2⟩ := idx_facts t
  show (cfg0.win 2).cut (grid0.coords t) ((dats m 0 c).after 2 t) = _
  rw [after0_2]
  unfold out0_2
  rw [View.canon_unit_zero hz3]
  simp only [View.ld_unit_zero (S := S8x128x1024) hz3, View.ld_unit_zero (S := S32x32x128) hz3]
  funext y
  show k0_pay1 (iblk m c 0 t) (iblk m c 1 t) y = tiles (V m c main_v1) (V m c main_v0) (((cfg0.win 2).blk t).view.emb y)
  refine tile_block (V m c main_v1) (V m c main_v0) ⟨t.val, htl⟩ _ _ (wblk_apply m c t ⟨t.val, htl⟩ rfl) (ablk_apply m c t ⟨t.val, htl⟩ rfl) y _ ?_ ?_ ?_
  · show win0_2.index t (0 : Fin 3) * 1 + 1 * (y 0).val = t.val
    have : (y 0).val < 1 := (y 0).isLt
    omega
  · show win0_2.index t (1 : Fin 3) * 32 + 1 * (y 1).val = (y 1).val; omega
  · show win0_2.index t (2 : Fin 3) * 8 + 1 * (y 2).val = (y 2).val; omega

/-- An index of the [8, 32, 8] array is in point t's block iff each coordinate is in the block's range. -/
theorem mem_blk (t : Fin cfg0.N) (i : S8x32x8.Idx) :
    i ∈ ((cfg0.win 2).blk t).view.set ↔ ∀ a : Fin 3, win0_2.index t a * S1x32x8.size a ≤ (i a).val ∧ (i a).val < win0_2.index t a * S1x32x8.size a + S1x32x8.size a := by
  show i ∈ ((View.whole main_v3).slice (win0_2.rect t)).set ↔ _
  rw [View.set_slice_whole, Rect.mem_set_unit]
  exact Iff.rfl

/-- Every index (t, b, e) is in the block of grid point t. -/
theorem cover (i : S8x32x8.Idx) : ∃ t : Fin cfg0.N, (cfg0.win 2).flush t = true ∧ i ∈ ((cfg0.win 2).blk t).view.set := by
  have hN : cfg0.N = 8 := N_0
  have h0 : (i 0).val < 8 := (i 0).isLt
  have h1 : (i 1).val < 32 := (i 1).isLt
  have h2 : (i 2).val < 8 := (i 2).isLt
  obtain ⟨-, -, -, -, -, -, e0, e1, e2⟩ := idx_facts ⟨(i 0).val, by omega⟩
  refine ⟨⟨(i 0).val, by omega⟩, flush0_2 _, ?_⟩
  rw [mem_blk]
  intro a
  match a with
  | ⟨0, _⟩ =>
    show win0_2.index ⟨(i 0).val, _⟩ (0 : Fin 3) * 1 ≤ (i 0).val ∧ (i 0).val < win0_2.index ⟨(i 0).val, _⟩ (0 : Fin 3) * 1 + 1
    rw [e0]; show (i 0).val * 1 ≤ (i 0).val ∧ (i 0).val < (i 0).val * 1 + 1; omega
  | ⟨1, _⟩ =>
    show win0_2.index ⟨(i 0).val, _⟩ (1 : Fin 3) * 32 ≤ (i 1).val ∧ (i 1).val < win0_2.index ⟨(i 0).val, _⟩ (1 : Fin 3) * 32 + 32
    rw [e1]; omega
  | ⟨2, _⟩ =>
    show win0_2.index ⟨(i 0).val, _⟩ (2 : Fin 3) * 8 ≤ (i 2).val ∧ (i 2).val < win0_2.index ⟨(i 0).val, _⟩ (2 : Fin 3) * 8 + 8
    rw [e2]; omega

/-- After the region the array of partial results holds the tile sums. -/
theorem tiles_final (c : Dev nD) : (dats m 0 c).arrAt 2 cfg0.N = tiles (V m c main_v1) (V m c main_v0) :=
  (dats m 0 c).arrAt_eq_of_cover 2 (tiles (V m c main_v1) (V m c main_v0)) (fun t _ => flushed_eq m c t) cover

end Cert.KernelIdeal.Hand

end
-- ==== Proof.KernelSide.lean ====
/-
  The kernel program computes the masked contraction.

  Before the region three reshapes drop the arguments' unit axes; the region leaves the [8, 32, 8] array of tile
  sums; after it the program adds the eight slabs (a sum started from the constant zero), multiplies by the reshaped
  mask and restores the leading unit axis. At (0, b, e) that is (sum over tiles t of the tile sum at (t, b, e)) times
  the mask at (b, e), and the tile sums add up to the contraction over all 1024 channels.
-/
import proofs.«107904_j62878321214308_2_alg».proof.Proof.TileBlocks
import Idealize.ShloMosaic.Lib.StableHlo.Run
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)
open Cert.Contraction

variable (m : (ℓ : Loc nD τ sig) → Buf (Elt Ideal) ℓ) (ρ : Dev nD → PrngReg)

/-- The region finds the activations with their leading unit axis dropped. -/
theorem V_v0 (c : Dev nD) : (V m c main_v0 : S32x32x1024.Idx → EReal)
    = shapeCast S32x32x1024 (m ((c : Thread nD τ).loc main_arg0)) shapeCasts_S1x32x32x1024_S32x32x1024 := by
  show StableHlo.after hostOps0 (fun b => m (c, b)) (Proc.devRef .tc main_v0) = _
  after_results
  rfl

/-- The region finds the weights with their leading unit axis dropped. -/
theorem V_v1 (c : Dev nD) : (V m c main_v1 : S8x1024x1024.Idx → EReal)
    = shapeCast S8x1024x1024 (m ((c : Thread nD τ).loc main_arg2)) shapeCasts_S1x8x1024x1024_S8x1024x1024 := by
  show StableHlo.after hostOps0 (fun b => m (c, b)) (Proc.devRef .tc main_v1) = _
  after_results
  rfl

/-- The mask with both unit axes dropped. -/
theorem V_v2 (c : Dev nD) : (V m c main_v2 : S32x8.Idx → EReal)
    = shapeCast S32x8 (m ((c : Thread nD τ).loc main_arg1)) shapeCasts_S1x32x1x8_S32x8 := by
  show StableHlo.after hostOps0 (fun b => m (c, b)) (Proc.devRef .tc main_v2) = _
  after_results
  rfl

/-- The operations after the region, applied to the array of tile sums the region left and to the reshaped mask. -/
theorem tail_eq (c : Dev nD) : Pipeline.afterTail₀ cfgs (dats m) 0 (V0 m) [hostOps1] c main_v6
    = (broadcastInDim S1x32x8 ![1, 2] bcast_S32x8_S1x32x8_1_2
        (mulf (F := Ideal) (Host.reduceAdd (F := Ideal) (tiles (V m c main_v1) (V m c main_v0)) (constant (F := Ideal) S_ .f32 0x00000000#32) reducesTo_S8x32x8_S32x8_d0 h_S_)
          (V m c main_v2)) : S1x32x8.Idx → EReal) := by
  unfold Pipeline.afterTail₀
  show StableHlo.after hostOps1 _ (Proc.devRef .tc main_v6) = _
  after_results
  refine congrArg (broadcastInDim (s := S32x8) (α := EReal) S1x32x8 ![1, 2] bcast_S32x8_S1x32x8_1_2) ?_
  refine congrArg₂ (fun p q => mulf (F := Ideal) (Host.reduceAdd (F := Ideal) p (constant (F := Ideal) S_ .f32 0x00000000#32) reducesTo_S8x32x8_S32x8_d0 h_S_) q) ?_ ?_
  · exact (Pipeline.withArrays_arr spec0 launch0.win.arr_inj c _ _ 2).trans (tiles_final m c)
  · exact Pipeline.withArrays_of_ne _ c (V0 m c) _ main_v2 (by exact (by decide : ∀ w, Pipeline.arrRef spec0 w ≠ main_v2))

/-- Adding the eight slabs: the sum over the leading axis at (b, e) runs over (t, b, e). -/
theorem slabSum_apply (P : FVec Ideal S8x32x8 .f32) (b : Fin 32) (e : Fin 8) :
    Host.reduceAdd (F := Ideal) P (constant (F := Ideal) S_ .f32 0x00000000#32) reducesTo_S8x32x8_S32x8_d0 h_S_ (ix2 b e) = ∑ t : Fin 8, P (ix3 t b e) := by
  simp only [Host.reduceAdd, Ideal.hostReduceAdd_def]
  rw [Ideal.hostReduceAdd_single reducesTo_S8x32x8_S32x8_d0 (by decide)]
  show Ideal.ofBits .f32 0x00000000#32 + _ = _
  rw [Ideal.ofBits_zero_f32, zero_add]
  refine Finset.sum_congr rfl fun t _ => ?_
  exact congrArg P (funext fun a => Fin.ext (by match a with | ⟨0, _⟩ => rfl | ⟨1, _⟩ => rfl | ⟨2, _⟩ => rfl))

/-- The mask with its unit axes dropped reads (0, b, 0, e) at (b, e). -/
theorem mask_apply (x1 : S1x32x1x8.Idx → EReal) (h : S1x32x1x8.ShapeCasts S32x8) (b : Fin 32) (e : Fin 8) :
    shapeCast S32x8 x1 h (ix2 b e) = x1 (ix4 (0 : Fin 1) b (0 : Fin 1) e) :=
  shapeCast_apply x1 h _ _ (by
    rw [Shape.rowMajor_val_four, Shape.rowMajor_val_two]
    show ((0 * 32 + b.val) * 1 + 0) * 8 + e.val = b.val * 8 + e.val
    omega)

/-- The program's result, as a function of the argument arrays, is the masked contraction. -/
theorem tail_value (c : Dev nD) : Pipeline.afterTail₀ cfgs (dats m) 0 (V0 m) [hostOps1] c main_v6
    = Contraction.result (m ((c : Thread nD τ).loc main_arg0)) (m ((c : Thread nD τ).loc main_arg1)) (m ((c : Thread nD τ).loc main_arg2)) := by
  rw [tail_eq, V_v0, V_v1, V_v2]
  funext i
  obtain ⟨u, b, e, rfl⟩ : ∃ (u : Fin 1) (b : Fin 32) (e : Fin 8), i = ix3 u b e := ⟨i 0, i 1, i 2, eq_ix3 i⟩
  rw [result_apply]
  refine (broadcastInDim_apply _ _ _ (ix3 u b e) (ix2 b e) (fun a => by match a with | ⟨0, _⟩ => rfl | ⟨1, _⟩ => rfl)).trans ?_
  refine (mulf_apply _ _ (ix2 b e)).trans ?_
  rw [slabSum_apply, mask_apply]
  show (∑ t : Fin 8, tileSum (fun b mm h => shapeCast S32x32x1024 (m ((c : Thread nD τ).loc main_arg0)) _ (ix3 b mm h))
      (fun e h n => shapeCast S8x1024x1024 (m ((c : Thread nD τ).loc main_arg2)) _ (ix3 e h n)) t b e) * _ = _
  simp only [shapeCast_1abc_abc_apply]
  rw [sum_tileSum]
  rfl

/-- The run, read: every execution ends with the result array at the masked contraction of the argument arrays and the
    arguments unchanged. -/
theorem run : θ_run defs (onTc (τ := τ) (main (F := Ideal))) ⟨m, fun _ => 0, ρ⟩ fun r => ∀ c : Dev nD,
      r.2.mem ((c : Thread nD τ).loc main_v6) = Contraction.result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v6 (Pipeline.mem_restRefs_of main_v6 (by decide) (by decide))).trans (tail_value m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Hand

end
-- ==== Proof.lean ====
/- The five claims for the gate-up contraction kernel.

   Both programs compute, for every row b < 32 and expert e < 8,
     out[0,b,e] = (sum over h < 1024 of (sum_m hidden[0,b,m,h]) * (sum_n weight[0,e,h,n])) * sparsity[0,b,0,e].
   The reference contracts the 1024 values of h in one product of the two reduced arrays; the kernel cuts h into
   eight tiles of 128, contracts each tile at its own grid point, and adds the eight partial results afterwards.
   Over the extended reals addition is commutative and associative, so regrouping the 1024 terms as 8 x 128 changes
   nothing, and no finiteness of the inputs is needed. -/
import proofs.«107904_j62878321214308_2_alg».proof.Defs
import proofs.«107904_j62878321214308_2_alg».proof.Proof.Gen.Kernel
import proofs.«107904_j62878321214308_2_alg».proof.Proof.Gen.Kernel.Skeleton
import proofs.«107904_j62878321214308_2_alg».proof.Proof.Gen.Kernel.Launch
import proofs.«107904_j62878321214308_2_alg».proof.Proof.Gen.Kernel.Points
import proofs.«107904_j62878321214308_2_alg».proof.Proof.Gen.Kernel.Frame
import proofs.«107904_j62878321214308_2_alg».proof.Proof.Gen.KernelIdeal
import proofs.«107904_j62878321214308_2_alg».proof.Proof.Gen.KernelIdeal.Skeleton
import proofs.«107904_j62878321214308_2_alg».proof.Proof.Gen.KernelIdeal.Launch
import proofs.«107904_j62878321214308_2_alg».proof.Proof.Gen.KernelIdeal.Points
import proofs.«107904_j62878321214308_2_alg».proof.Proof.Gen.KernelIdeal.Frame
import proofs.«107904_j62878321214308_2_alg».proof.Proof.Gen.ReferenceIdeal
import proofs.«107904_j62878321214308_2_alg».proof.Proof.Gen.ReferenceIdeal.Run
import proofs.«107904_j62878321214308_2_alg».proof.Proof.Gen.ReferenceIdeal.Read
import proofs.«107904_j62878321214308_2_alg».proof.Proof.Gen.Pre_finite_inputs
import proofs.«107904_j62878321214308_2_alg».proof.Proof.Contraction
import proofs.«107904_j62878321214308_2_alg».proof.Proof.ReferenceSide
import proofs.«107904_j62878321214308_2_alg».proof.Proof.KernelSide
import Idealize.ShloMosaic.Adequacy
import Idealize.ShloMosaic.Init

noncomputable section

namespace Cert.Proof

open Idealize.ShloMosaic Idealize.SL.Sem Cert.Kernel

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

/-- From memories that agree on the three arguments, the kernel program ends with its result at the masked contraction
    of its arguments, the reference with its result at the same function of its own, hence of the kernel's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Contraction.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.Hand.value_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
